-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn_part1 {F : FTy → Type} [FloatOps F] (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  main_v18

def fn {F : FTy → Type} [FloatOps F] (main_arg0 : FVec F S8192x128 .f32) (main_arg1 : FVec F S8192x128 .f32) (main_arg2 : FVec F S8192x128 .f32) (main_arg3 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_v13 main_v16
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1024x128 : Shape := ⟨2, ![1024, 128]⟩
abbrev S2048x128 : Shape := ⟨2, ![2048, 128]⟩
abbrev S1024x2048 : Shape := ⟨2, ![1024, 2048]⟩

abbrev nBuf : Space → Nat
  | .hbm => 30
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x128, .bf16⟩
  | .hbm, ⟨25, _⟩ => ⟨S8192x128, .f32⟩
  | .hbm, ⟨26, _⟩ => ⟨S8192x128, .f32⟩
  | .hbm, ⟨27, _⟩ => ⟨S8192x128, .bf16⟩
  | .hbm, ⟨28, _⟩ => ⟨S8192x8192, .f32⟩
  | .hbm, ⟨29, _⟩ => ⟨S8192x8192, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1024x2048, .f32⟩
  | .local _ .vmem, ⟨5, _⟩ => ⟨S1024x2048, .f32⟩
  | .local _ .vmem, ⟨6, _⟩ => ⟨S1024x128, .bf16⟩
  | .local _ .vmem, ⟨7, _⟩ => ⟨S1024x128, .bf16⟩
  | .local _ .vmem, ⟨8, _⟩ => ⟨S2048x128, .bf16⟩
  | .local _ .vmem, ⟨9, _⟩ => ⟨S2048x128, .bf16⟩
  | .local _ .vmem, ⟨10, _⟩ => ⟨S1024x2048, .f32⟩
  | .local _ .vmem, ⟨11, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .bf16 = 32 ∨ (Rect.block (s := S8192x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x8192.size a
  hwx1_2 : ∀ i : grid1.Coords, EltTy.bits .f32 = 32 ∨ (Rect.block (s := S8192x8192) S1024x2048.size (cc1_transform_2 i) (hinb1_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v10) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S128x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x128, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x128, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S128x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .i1⟩
  | .hbm, ⟨60, _⟩ => ⟨S_, .f32⟩
  | .hbm, ⟨61, _⟩ => ⟨S_, .f32⟩
  | .hbm, ⟨62, _⟩ => ⟨S8192x8192, .f32⟩
  | .hbm, ⟨63, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_call2_v0 : Ref sig .tc := ⟨.hbm, 32, rfl⟩
abbrev main_call2_v1 : Ref sig .tc := ⟨.hbm, 33, rfl⟩
abbrev main_v16 : Ref sig .tc := ⟨.hbm, 34, rfl⟩
abbrev main_call3_v0 : Ref sig .tc := ⟨.hbm, 35, rfl⟩
abbrev main_call3_cst : Ref sig .tc := ⟨.hbm, 36, rfl⟩
abbrev main_call3_v1 : Ref sig .tc := ⟨.hbm, 37, rfl⟩
abbrev main_call3_v2 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_call4_v0 : Ref sig .tc := ⟨.hbm, 43, rfl⟩
abbrev main_call4_cst : Ref sig .tc := ⟨.hbm, 44, rfl⟩
abbrev main_call4_v1 : Ref sig .tc := ⟨.hbm, 45, rfl⟩
abbrev main_call4_v2 : Ref sig .tc := ⟨.hbm, 46, rfl⟩
abbrev main_v20 : Ref sig .tc := ⟨.hbm, 47, rfl⟩
abbrev main_cst_4 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_call5_v0 : Ref sig .tc := ⟨.hbm, 61, rfl⟩
abbrev main_call5_v1 : Ref sig .tc := ⟨.hbm, 62, rfl⟩
abbrev main_v31 : Ref sig .tc := ⟨.hbm, 63, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Data.lean ====
/-
  The two launches of the thresholded cosine-similarity kernel, as data: for each launch, the block of each
  operand a grid point reads (rows `1024·i …` of the left operand, rows `2048·j …` of the right one), what the
  body leaves in the output's staging buffer (the one whole-block store of the thresholded product of the two
  blocks), and the pipeline's proof data built from them. In the second launch both operands are the SAME
  array (the similarity of the normalised rows with themselves), so each of its two input windows holds
  half of that array's read share.
-/
import proofs.«134519_j9259949490946_2_alg».proof.Proof.Gen.Kernel.Launch
import proofs.«134519_j9259949490946_2_alg».proof.Proof.Gen.Kernel.Skeleton
import proofs.«134519_j9259949490946_2_alg».proof.Proof.Gen.Kernel.Points
import Idealize.ShloMosaic.Lib.Pipeline.FrameBody
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

/-- The contents of the core's buffers when a launch is entered. -/
abbrev Entry (F : FTy → Type) [FloatOps F] : Type :=
  (c : Dev nD) → (b : Ref sig .tc) → Buf (Elt F) ((c : Thread nD τ).loc b)

variable (V : Entry F)

/-- The body's three accesses: each the whole staging buffer. -/
abbrev rL : Rect S1024x128 := Rect.unit (s := S1024x128) ![0, 0] S1024x128.size inb_S1024x128_S1024x128_0_0
abbrev rR : Rect S2048x128 := Rect.unit (s := S2048x128) ![0, 0] S2048x128.size inb_S2048x128_S2048x128_0_0
abbrev rO : Rect S1024x2048 := Rect.unit (s := S1024x2048) ![0, 0] S1024x2048.size inb_S1024x2048_S1024x2048_0_0

/-! ## First launch: left rows against right rows -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output's staging buffer after the body: one store of the thresholded product of the two blocks. -/
def out0 (x : Vec F S1024x128 .bf16) (y : Vec F S2048x128 .bf16) : Vec F S1024x2048 .f32 :=
  View.canon [⟨rO, k0_pay1 (View.ld x rL) (View.ld y rR)⟩]

/-- The first launch's proof data: arrays as found; inputs keep their blocks, the output holds `out0` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-! ## Second launch: the left rows against themselves -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1 (x : Vec F S1024x128 .bf16) (y : Vec F S2048x128 .bf16) : Vec F S1024x2048 .f32 :=
  View.canon [⟨rO, k1_pay1 (View.ld x rL) (View.ld y rR)⟩]

/-- The second launch's proof data; the two input windows read one array, half of its share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

end Cert.Kernel.Hand

end
-- ==== Proof.K.Shared.lean ====
/-
  The second launch reads ONE array (the normalised left rows) through both of its input windows. Its
  proof data therefore holds that array twice, at the two halves of the full share, next to the output array
  at the full share. This module says so in closed form and converts between that and plain whole-buffer
  ownership of the two distinct buffers: splitting a read-only buffer's share in two on entry, and joining the
  halves again on exit (both halves still hold the entry contents: an input window never writes back).
-/
import proofs.«134519_j9259949490946_2_alg».proof.Proof.K.Data
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- The distinct buffers behind the second launch's three windows are two: the shared input and the output. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v10) ↦{fullShare} W main_v10) ∗ (((c : Thread nD τ).loc main_v15) ↦{fullShare} W main_v15)) := by
  unfold Pipeline.arrBufs
  rw [show (Finset.univ.image (Pipeline.arrRef spec1) : Finset (Ref sig .tc)) = insert main_v10 {main_v15} from by decide,
    bigSep_insert (by decide), bigSep_singleton]
  rfl

/-- The second launch's arrays in closed form: the shared input at the left and at the right half share, the
    output at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v10) ↦{fullShare.left} G 0) ∗ (((c : Thread nD τ).loc main_v10) ↦{fullShare.right} G 1)
          ∗ (((c : Thread nD τ).loc main_v15) ↦{fullShare} G 2)) := by
  unfold Dat.arrays
  rw [bigSep_W1]
  rw [(arr_whole1 0).set_eq_univ, (arr_whole1 2).set_eq_univ]
  rfl

end Cert.Kernel.Hand

end
-- ==== Proof.K.Run.lean ====
/-
  The whole program's run: host stretches, then the two launches. Between two items a core holds every
  unscoped buffer at a named valuation: the launch memory pushed through the host stretches, then updated at the
  first launch's output array by what its write-backs leave, then at the second launch's. Each launch is entered
  from that state: its arrays are taken out of the unscoped buffers (for the second launch the shared input is
  split into two half shares), the pipeline runs, and the arrays are put back with the output at its final
  contents. The run ends with both outputs at their write-backs' fold and every argument as launched.
-/
import proofs.«134519_j9259949490946_2_alg».proof.Proof.K.Shared
import proofs.«134519_j9259949490946_2_alg».proof.Proof.Gen.Kernel.Regions
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents around the two launches -/

/-- The first launch's entry contents: the launch memory after the host stretches. -/
abbrev E5 : Entry F := fun c b => V5 m c b
/-- What the first launch leaves in its output array. -/
def o6 (c : Dev nD) : Buf (Elt F) ((c : Thread nD τ).loc main_v14) := (dat0 (E5 m) c).arrAt 2 cfg0.N
/-- The buffers after the first launch: as entered, the output array at `o6`. -/
abbrev X6 (c : Dev nD) : Valuation τ sig (Elt F) := Function.update (V5 m c) main_v14 (o6 m c)
/-- The second launch's entry contents. -/
abbrev E6 : Entry F := fun c b => X6 m c b
/-- What the second launch leaves in its output array. -/
def o7 (c : Dev nD) : Buf (Elt F) ((c : Thread nD τ).loc main_v15) := (dat1 (E6 m) c).arrAt 2 cfg1.N
/-- The buffers after the second launch. -/
abbrev X7 (c : Dev nD) : Valuation τ sig (Elt F) := Function.update (X6 m c) main_v15 (o7 m c)
abbrev E7 : Entry F := fun c b => X7 m c b

/-- What the launches leave, as the family the host side's valuations are written over. -/
def outs : Outs (F := F) := fun J r c =>
  if J = 6 then (if h : r = main_v14 then h ▸ o6 m c else V5 m c r)
  else (if h : r = main_v15 then h ▸ o7 m c else V5 m c r)

theorem outs6 (c : Dev nD) : outs m 6 main_v14 c = o6 m c := by
  unfold outs; rw [if_pos rfl, dif_pos rfl]
theorem outs7 (c : Dev nD) : outs m 7 main_v15 c = o7 m c := by
  unfold outs; rw [if_neg (by decide), dif_pos rfl]
theorem V6_eq (c : Dev nD) : V6 m (outs m) c = X6 m c := by
  show Function.update _ _ _ = _; rw [outs6]
theorem V7_eq (c : Dev nD) : V7 m (outs m) c = X7 m c := by
  show Function.update (V6 m (outs m) c) _ _ = _; rw [outs7, V6_eq]

/-- After the first launch its input arrays are as entered and its output array holds `o6`. -/
theorem exit0_arr (c : Dev nD) : ∀ w : Fin cfg0.W, (dat0 (E5 m) c).arrAt w cfg0.N = E6 m c (Pipeline.arrRef spec0 w)
  | ⟨0, _⟩ => ((dat0 (E5 m) c).arrAt_in 0 rfl _).trans
      ((A_eq0 (E5 m) c 0).trans (Function.update_of_ne (StableHlo.devRef_ne_of_ne (by decide)) _ _).symm)
  | ⟨1, _⟩ => ((dat0 (E5 m) c).arrAt_in 1 rfl _).trans
      ((A_eq0 (E5 m) c 1).trans (Function.update_of_ne (StableHlo.devRef_ne_of_ne (by decide)) _ _).symm)
  | ⟨2, _⟩ => by
      show o6 m c = Function.update (V5 m c) (Proc.devRef .tc main_v14) (o6 m c) (Proc.devRef .tc main_v14)
      rw [Function.update_self]
/-- Off the first launch's arrays nothing changed. -/
theorem exit0_rest (c : Dev nD) : ∀ b, b ∉ Finset.univ.image (Pipeline.arrRef spec0) → E6 m c b = E5 m c b :=
  fun b hb => Function.update_of_ne (StableHlo.devRef_ne_of_ne fun e => hb (Finset.mem_image.mpr ⟨2, Finset.mem_univ _, e.symm⟩)) _ _

/-! ## The proof data family and what rides beside the buffers -/

abbrev pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E6 m) c

abbrev 𝒱₀ : Variants := Variants.none
abbrev Lv : GSem nD τ sig → Finset Unit := fun _ => ∅
abbrev lv : GSem nD τ sig → Unit → ℕ := fun _ _ => 0
/-- Beside the buffers: the core's generator register at some state, and the core owing nothing. -/
abbrev Rest (c : Dev nD) : sProp 𝕄 := iprop((∃ r, prngReg c r) ∗ ∃ W, owes (c : Thread nD τ) (0 : CellTallies nD τ sig Unit) W)

/-! ## The first launch as a segment -/

set_option backward.isDefEq.respectTransparency.types false in
/-- Entered with every unscoped buffer at the host stretches' result, left with the output array updated. -/
def reg0 (hb : ∀ c, BodyObligation (dat0 (F := F) (E5 m) c) (defs₀ (F := F)) Variants.none () Set.univ) :
    RegionSeg (pcfgs (F := F)) adm (pdats m) () defs₀ 𝒱₀ Lv lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ Lv lv 0 fun _ _ => rfl
  pre c := iprop(StableHlo.held (c : Thread nD τ) (Pipeline.ucRefs τ sig) (V5 m c) ∗ Rest c)
  post c := iprop(StableHlo.held (c : Thread nD τ) (Pipeline.ucRefs τ sig) (X6 m c) ∗ Rest c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second launch as a segment -/

/-- Off the second launch's output array nothing changes. -/
theorem exit1_rest (c : Dev nD) :
    (Pipeline.unscopedRest (Ix := Unit) (Name := ℕ) (U := UR sig nD τ) (Lvl := ℕ) spec1 c (fun b => X7 m c b) : sProp 𝕄)
      = Pipeline.unscopedRest spec1 c (fun b => X6 m c b) := by
  unfold Pipeline.unscopedRest
  exact bigSep_congr fun b hb => by
    show ((((c : Thread nD τ).loc b) ↦{fullShare} X7 m c b) : sProp 𝕄) = (((c : Thread nD τ).loc b) ↦{fullShare} X6 m c b)
    rw [show X7 m c b = X6 m c b from Function.update_of_ne (StableHlo.devRef_ne_of_ne fun e =>
      (Finset.mem_sdiff.mp hb).2 (Finset.mem_image.mpr ⟨2, Finset.mem_univ _, e.symm⟩)) _ _]

/-- A core's unscoped buffers at contents `W`: the second launch's two distinct arrays and the rest. -/
theorem held_split1 (c : Dev nD) (W : Valuation τ sig (Elt F)) :
    (StableHlo.held (c : Thread nD τ) (Pipeline.ucRefs τ sig) W : sProp 𝕄)
      = iprop(((((c : Thread nD τ).loc main_v10) ↦{fullShare} W main_v10) ∗ (((c : Thread nD τ).loc main_v15) ↦{fullShare} W main_v15))
          ∗ Pipeline.unscopedRest spec1 c (fun b => W b)) := by
  rw [← Pipeline.unscopedBufs_held c W, Pipeline.unscopedBufs_split₀ (Ix := Unit) (Name := ℕ) (U := UR sig nD τ) (Lvl := ℕ) cfgs 1 winFacts₀1.arr_unscoped c (fun b => W b)]
  show iprop((Pipeline.arrBufs spec1 c (fun b => W b) : sProp 𝕄) ∗ Pipeline.unscopedRest spec1 c (fun b => W b)) = _
  rw [arrBufs1_eq]

set_option backward.isDefEq.respectTransparency.types false in
/-- Entered with every unscoped buffer as the first launch left it, left with its own output array updated. The
    shared input array is split into its two half shares on the way in and joined on the way out. -/
def reg1 (hb : ∀ c, BodyObligation (dat1 (F := F) (E6 m) c) (defs₀ (F := F)) Variants.none () Set.univ) :
    RegionSeg (pcfgs (F := F)) adm (pdats m) () defs₀ 𝒱₀ Lv lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ Lv lv 1 fun _ _ => rfl
  pre c := iprop(StableHlo.held (c : Thread nD τ) (Pipeline.ucRefs τ sig) (X6 m c) ∗ Rest c)
  post c := iprop(StableHlo.held (c : Thread nD τ) (Pipeline.ucRefs τ sig) (X7 m c) ∗ Rest c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hs := held_split1 (F := F) c (X6 m c)
    rw [show (pdats m 1 c).arrays ((pdats m 1 c).arrAt · 0) = _ from arrays1_eq (E6 m) c _]
    iintro ⟨⟨Hub, Hp, HO⟩, -, -⟩
    ihave H := (Entails.of_eq hs) $$ Hub
    icases H with ⟨⟨H10, H15⟩, Hrest⟩
    ihave H10' := (pointsTo_share (PosShare.mem_left_op_right fullShare)).1 $$ H10
    icases H10' with ⟨HL, HR⟩
    imodintro
    isplitl [HL HR H15]
    · isplitl [HL]; · iexact HL
      isplitl [HR]; · iexact HR
      iexact H15
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := held_split1 (F := F) c (X7 m c)
    rw [exit1_rest] at hs
    rw [show (pdats m 1 c).arrays ((pdats m 1 c).arrAt · (Pipeline.pin (pcfgs (F := F)) adm 1).N) = _ from arrays1_eq (E6 m) c _,
      show (pdats m 1 c).arrAt 0 (Pipeline.pin (pcfgs (F := F)) adm 1).N = X7 m c main_v10 from
        ((dat1 (E6 m) c).arrAt_in 0 rfl _).trans ((A_eq1 (E6 m) c 0).trans (Function.update_of_ne (StableHlo.devRef_ne_of_ne (by decide)) _ _).symm),
      show (pdats m 1 c).arrAt 1 (Pipeline.pin (pcfgs (F := F)) adm 1).N = X7 m c main_v10 from
        ((dat1 (E6 m) c).arrAt_in 1 rfl _).trans ((A_eq1 (E6 m) c 1).trans (Function.update_of_ne (StableHlo.devRef_ne_of_ne (by decide)) _ _).symm),
      show (pdats m 1 c).arrAt 2 (Pipeline.pin (pcfgs (F := F)) adm 1).N = X7 m c main_v15 from by
        show o7 m c = Function.update (X6 m c) (Proc.devRef .tc main_v15) (o7 m c) (Proc.devRef .tc main_v15)
        rw [Function.update_self]]
    iintro ⟨⟨HL, HR, H15⟩, HO, HY, Hrest⟩
    ihave H10 := (pointsTo_share (PosShare.mem_left_op_right fullShare)).2 $$ [HL HR]
    · isplitl [HL]; · iexact HL
      iexact HR
    imodintro
    isplitl [H10 H15 Hrest]
    · iapply (Entails.of_eq hs.symm)
      isplitl [H10 H15]
      · isplitl [H10]; · iexact H10
        iexact H15
      iexact Hrest
    isplitl [HY]; · iexact HY
    unfold Pipeline.Dat.owesAt Pipeline.owesWithin
    icases HO with ⟨%W, -, HO⟩; iexists W; iexact HO

/-! ## The run -/

theorem V7_main_v15 (outs : Outs (F := F)) (c : Dev nD) : V7 m outs c main_v15 = outs 7 main_v15 c := by
  show Function.update (V6 m outs c) (Proc.devRef .tc main_v15) _ (Proc.devRef .tc main_v15) = _
  rw [Function.update_self]
theorem V7_main_v14 (outs : Outs (F := F)) (c : Dev nD) : V7 m outs c main_v14 = outs 6 main_v14 c :=
  (V7_of m outs c main_v14 (by decide)).trans (by
    show Function.update (V5 m c) (Proc.devRef .tc main_v14) _ (Proc.devRef .tc main_v14) = _
    rw [Function.update_self])

set_option backward.isDefEq.respectTransparency.types false in
/-- The program's run from one segment record per launch: every weakly fair execution terminates, the two result
    arrays end at what the launches' records leave in them, and every argument ends as launched. The host side is
    the chain of host stretches over the named valuations; at the end every unscoped buffer is read off the last
    valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      r.2.mem ((c.tc : Thread nD τ).loc main_v15) = outs 7 main_v15 c
      ∧ r.2.mem ((c.tc : Thread nD τ).loc main_v14) = outs 6 main_v14 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, .rfl, .rfl, hpre0 c, (hpost0 c).trans (hpre1 c), (hpost1 c).trans (sep_mono .rfl (hE2 c))⟩)
    (hinit := ?_) (QY := fun c s => s.mem ((c.tc : Thread nD τ).loc main_v15) = outs 7 main_v15 c ∧ s.mem ((c.tc : Thread nD τ).loc main_v14) = outs 6 main_v14 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨(h (Proc.devRef .tc main_v15) (Finset.mem_filter.mpr ⟨StableHlo.devRef_mem_tcRefs main_v15, by decide⟩)).trans (V7_main_v15 m outs c),
        (h (Proc.devRef .tc main_v14) (Finset.mem_filter.mpr ⟨StableHlo.devRef_mem_tcRefs main_v14, by decide⟩)).trans (V7_main_v14 m outs c),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c)⟩
    · iexact HSI

set_option backward.isDefEq.respectTransparency.types false in
/-- The run, given the two launches' body obligations: the second result array ends at the first launch's
    write-backs folded over its entry contents, the first result array at the second launch's, the arguments as
    launched. -/
theorem run (ρ : Dev nD → PrngReg)
    (hb0 : ∀ c, BodyObligation (dat0 (F := F) (E5 m) c) (defs₀ (F := F)) Variants.none () Set.univ)
    (hb1 : ∀ c, BodyObligation (dat1 (F := F) (E6 m) c) (defs₀ (F := F)) Variants.none () Set.univ) :
    θ_run defs (onTc (τ := τ) (main (F := F))) ⟨m, fun _ => 0, ρ⟩ (fun r => ∀ c : Dev nD,
      r.2.mem ((c.tc : Thread nD τ).loc main_v15) = o7 m c
      ∧ r.2.mem ((c.tc : Thread nD τ).loc main_v14) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_cond m (Ix := Unit) (U := UR sig nD τ) (Lvl := ℕ) emb₁ () 𝒱₀ Lv lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach Lv lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m hb0) (hpre0 := fun c => .rfl) (hpost0 := fun c => by rw [V6_eq]; exact .rfl)
    (R1 := reg1 m hb1) (hpre1 := fun c => by rw [V6_eq]; exact .rfl) (hpost1 := fun c => by rw [V7_eq]; exact .rfl)
  refine (θ_run defs _ _).mono (fun r hr c => ?_) h
  have := hr c
  rw [outs7, outs6] at this
  exact this

end Cert.Kernel.Hand

end
-- ==== Proof.K.Region0.lean ====
/-
  The body of launch 0 as a separation-logic triple. The body reads its two operand staging buffers whole,
  reads the output staging buffer whole (the value is never used), and stores the thresholded product of the
  two operand blocks over the whole output buffer. So: if the left buffer holds `x`, the right one `y` and
  the output buffer anything, it ends with the operand buffers unchanged and the output buffer holding
  `out0 x y`. At a grid point the operand buffers hold that point's blocks (whether or not they were
  fetched there: an unfetched operand's block index has not moved), which gives the pipeline's body obligation.
-/
import proofs.«134519_j9259949490946_2_alg».proof.Proof.K.Data
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The operand windows hold their blocks at every point -/

/-- The left operand's current staging buffer holds its block at every point. It is fetched only when the
    row-block index changes (every fourth point); in between the index has not moved and the body leaves the
    buffer as it found it, so what was fetched earlier is still this point's block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The right operand's current staging buffer holds its block at every point (it is fetched at each). -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The one store covers the output buffer -/

/-- The store's rectangle starts at the origin and has the buffer's extents: every index lies in it. -/
theorem cover0 (p : Vec F S1024x2048 .f32) (y : S1024x2048.Idx) :
    ∃ pc ∈ ([⟨rO, p⟩] : List (View.Piece (Elt F) S1024x2048 .f32)), y ∈ pc.1.set := by
  refine ⟨_, List.mem_singleton_self _, ?_⟩
  have h0 : (![0, 0] : Fin S1024x2048.rank → ℕ) = fun _ => 0 := by
    funext a; fin_cases a <;> rfl
  show y ∈ (Rect.unit (s := S1024x2048) ![0, 0] S1024x2048.size inb_S1024x2048_S1024x2048_0_0).set
  rw [Rect.mem_set_unit]
  intro a
  have ha : (![0, 0] : Fin S1024x2048.rank → ℕ) a = 0 := congrFun h0 a
  rw [ha, Nat.zero_add]
  exact ⟨Nat.zero_le _, (y a).isLt⟩

/-! ## The body's triple -/

set_option maxHeartbeats 1000000 in
/-- The body on whole staging memrefs: the operands' at contents `x`, `y`, the output's at anything. It runs
    to the continuation with the operands' as they were and the output's at `out0 x y`: the load of the
    output buffer reads the unknown contents and discards them; the store then overwrites every element. -/
theorem sound_kernel0 (c : Dev nD) (E : Set ℕ) (i : grid0.Coords)
    (arg2 : Memref sig .tc .vmem S1024x128 .bf16) (harg2 : arg2.IsWhole)
    (arg3 : Memref sig .tc .vmem S2048x128 .bf16) (harg3 : arg3.IsWhole)
    (arg4 : Memref sig .tc .vmem S1024x2048 .f32) (harg4 : arg4.IsWhole)
    (x : Vec F S1024x128 .bf16) (y : Vec F S2048x128 .bf16) (K : PUnit → sProp 𝕄) :
    iprop(owns (c : Thread nD τ) arg2 fullShare x ∗ owns (c : Thread nD τ) arg3 fullShare y
        ∗ (∃ d, owns (c : Thread nD τ) arg4 fullShare d)
        ∗ (iprop(owns (c : Thread nD τ) arg2 fullShare x ∗ owns (c : Thread nD τ) arg3 fullShare y
            ∗ owns (c : Thread nD τ) arg4 fullShare (out0 x y)) -∗ K ⟨⟩))
      ⊢ wp frame (wpE (defs₀ (F := F)) Variants.none c none) E (cc0__cos_threshold_kernel i arg2 harg2 arg3 harg3 arg4 harg4) K := by
  simp only [cc0__cos_threshold_kernel_eq_skeleton]; unfold cc0__cos_threshold_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The body obligation, at a generic point -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operand buffers hold the point's blocks, the output buffer whatever the
    pipeline left there, so the body's triple applies; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (V : Entry F) (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The body of launch 1 as a separation-logic triple. The body reads its two operand staging buffers whole,
  reads the output staging buffer whole (the value is never used), and stores the thresholded product of the
  two operand blocks over the whole output buffer. So: if the left buffer holds `x`, the right one `y` and
  the output buffer anything, it ends with the operand buffers unchanged and the output buffer holding
  `out1 x y`. At a grid point the operand buffers hold that point's blocks (whether or not they were
  fetched there: an unfetched operand's block index has not moved), which gives the pipeline's body obligation.
-/
import proofs.«134519_j9259949490946_2_alg».proof.Proof.K.Data
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The operand windows hold their blocks at every point -/

/-- The left operand's current staging buffer holds its block at every point. It is fetched only when the
    row-block index changes (every fourth point); in between the index has not moved and the body leaves the
    buffer as it found it, so what was fetched earlier is still this point's block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The right operand's current staging buffer holds its block at every point (it is fetched at each). -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The one store covers the output buffer -/

/-- The store's rectangle starts at the origin and has the buffer's extents: every index lies in it. -/
theorem cover1 (p : Vec F S1024x2048 .f32) (y : S1024x2048.Idx) :
    ∃ pc ∈ ([⟨rO, p⟩] : List (View.Piece (Elt F) S1024x2048 .f32)), y ∈ pc.1.set := by
  refine ⟨_, List.mem_singleton_self _, ?_⟩
  have h0 : (![0, 0] : Fin S1024x2048.rank → ℕ) = fun _ => 0 := by
    funext a; fin_cases a <;> rfl
  show y ∈ (Rect.unit (s := S1024x2048) ![0, 0] S1024x2048.size inb_S1024x2048_S1024x2048_0_0).set
  rw [Rect.mem_set_unit]
  intro a
  have ha : (![0, 0] : Fin S1024x2048.rank → ℕ) a = 0 := congrFun h0 a
  rw [ha, Nat.zero_add]
  exact ⟨Nat.zero_le _, (y a).isLt⟩

/-! ## The body's triple -/

set_option maxHeartbeats 1000000 in
/-- The body on whole staging memrefs: the operands' at contents `x`, `y`, the output's at anything. It runs
    to the continuation with the operands' as they were and the output's at `out1 x y`: the load of the
    output buffer reads the unknown contents and discards them; the store then overwrites every element. -/
theorem sound_kernel1 (c : Dev nD) (E : Set ℕ) (i : grid1.Coords)
    (arg2 : Memref sig .tc .vmem S1024x128 .bf16) (harg2 : arg2.IsWhole)
    (arg3 : Memref sig .tc .vmem S2048x128 .bf16) (harg3 : arg3.IsWhole)
    (arg4 : Memref sig .tc .vmem S1024x2048 .f32) (harg4 : arg4.IsWhole)
    (x : Vec F S1024x128 .bf16) (y : Vec F S2048x128 .bf16) (K : PUnit → sProp 𝕄) :
    iprop(owns (c : Thread nD τ) arg2 fullShare x ∗ owns (c : Thread nD τ) arg3 fullShare y
        ∗ (∃ d, owns (c : Thread nD τ) arg4 fullShare d)
        ∗ (iprop(owns (c : Thread nD τ) arg2 fullShare x ∗ owns (c : Thread nD τ) arg3 fullShare y
            ∗ owns (c : Thread nD τ) arg4 fullShare (out1 x y)) -∗ K ⟨⟩))
      ⊢ wp frame (wpE (defs₀ (F := F)) Variants.none c none) E (cc1__cos_threshold_kernel i arg2 harg2 arg3 harg3 arg4 harg4) K := by
  simp only [cc1__cos_threshold_kernel_eq_skeleton]; unfold cc1__cos_threshold_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The body obligation, at a generic point -/

/-- What the body is called with at point `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same invariant and debt, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operand buffers hold the point's blocks, the output buffer whatever the
    pipeline left there, so the body's triple applies; the invariant and the debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (V : Entry F) (c : Dev nD) : BodyObligation (dat1 (F := F) V c) (defs₀ (F := F)) Variants.none () Set.univ := fun t => by
  rw [bigSep_W1, bigSep_W1]
  exact sound_body1 V c t

end Cert.Kernel.Hand

end
-- ==== Proof.KI.Data.lean ====
/-
  The two launches of the thresholded cosine-similarity kernel, as data: for each launch, the block of each
  operand a grid point reads (rows `1024·i …` of the left operand, rows `2048·j …` of the right one), what the
  body leaves in the output's staging buffer (the one whole-block store of the thresholded product of the two
  blocks), and the pipeline's proof data built from them. In the second launch both operands are the SAME
  array (the similarity of the normalised rows with themselves), so each of its two input windows holds
  half of that array's read share.
-/
import proofs.«134519_j9259949490946_2_alg».proof.Proof.Gen.KernelIdeal.Launch
import proofs.«134519_j9259949490946_2_alg».proof.Proof.Gen.KernelIdeal.Skeleton
import proofs.«134519_j9259949490946_2_alg».proof.Proof.Gen.KernelIdeal.Points
import Idealize.ShloMosaic.Lib.Pipeline.FrameBody
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

/-- The contents of the core's buffers when a launch is entered. -/
abbrev Entry (F : FTy → Type) [FloatOps F] : Type :=
  (c : Dev nD) → (b : Ref sig .tc) → Buf (Elt F) ((c : Thread nD τ).loc b)

variable (V : Entry F)

/-- The body's three accesses: each the whole staging buffer. -/
abbrev rL : Rect S1024x128 := Rect.unit (s := S1024x128) ![0, 0] S1024x128.size inb_S1024x128_S1024x128_0_0
abbrev rR : Rect S2048x128 := Rect.unit (s := S2048x128) ![0, 0] S2048x128.size inb_S2048x128_S2048x128_0_0
abbrev rO : Rect S1024x2048 := Rect.unit (s := S1024x2048) ![0, 0] S1024x2048.size inb_S1024x2048_S1024x2048_0_0

/-! ## First launch: left rows against right rows -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output's staging buffer after the body: one store of the thresholded product of the two blocks. -/
def out0 (x : Vec F S1024x128 .bf16) (y : Vec F S2048x128 .bf16) : Vec F S1024x2048 .f32 :=
  View.canon [⟨rO, k0_pay1 (View.ld x rL) (View.ld y rR)⟩]

/-- The first launch's proof data: arrays as found; inputs keep their blocks, the output holds `out0` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-! ## Second launch: the left rows against themselves -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1 (x : Vec F S1024x128 .bf16) (y : Vec F S2048x128 .bf16) : Vec F S1024x2048 .f32 :=
  View.canon [⟨rO, k1_pay1 (View.ld x rL) (View.ld y rR)⟩]

/-- The second launch's proof data; the two input windows read one array, half of its share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

end Cert.KernelIdeal.Hand

end
-- ==== Proof.KI.Shared.lean ====
/-
  The second launch reads ONE array (the normalised left rows) through both of its input windows. Its
  proof data therefore holds that array twice, at the two halves of the full share, next to the output array
  at the full share. This module says so in closed form and converts between that and plain whole-buffer
  ownership of the two distinct buffers: splitting a read-only buffer's share in two on entry, and joining the
  halves again on exit (both halves still hold the entry contents: an input window never writes back).
-/
import proofs.«134519_j9259949490946_2_alg».proof.Proof.KI.Data
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- The distinct buffers behind the second launch's three windows are two: the shared input and the output. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v10) ↦{fullShare} W main_v10) ∗ (((c : Thread nD τ).loc main_v15) ↦{fullShare} W main_v15)) := by
  unfold Pipeline.arrBufs
  rw [show (Finset.univ.image (Pipeline.arrRef spec1) : Finset (Ref sig .tc)) = insert main_v10 {main_v15} from by decide,
    bigSep_insert (by decide), bigSep_singleton]
  rfl

/-- The second launch's arrays in closed form: the shared input at the left and at the right half share, the
    output at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v10) ↦{fullShare.left} G 0) ∗ (((c : Thread nD τ).loc main_v10) ↦{fullShare.right} G 1)
          ∗ (((c : Thread nD τ).loc main_v15) ↦{fullShare} G 2)) := by
  unfold Dat.arrays
  rw [bigSep_W1]
  rw [(arr_whole1 0).set_eq_univ, (arr_whole1 2).set_eq_univ]
  rfl

end Cert.KernelIdeal.Hand

end
-- ==== Proof.KI.Run.lean ====
/-
  The whole program's run: host stretches, then the two launches. Between two items a core holds every
  unscoped buffer at a named valuation: the launch memory pushed through the host stretches, then updated at the
  first launch's output array by what its write-backs leave, then at the second launch's. Each launch is entered
  from that state: its arrays are taken out of the unscoped buffers (for the second launch the shared input is
  split into two half shares), the pipeline runs, and the arrays are put back with the output at its final
  contents. The run ends with both outputs at their write-backs' fold and every argument as launched.
-/
import proofs.«134519_j9259949490946_2_alg».proof.Proof.KI.Shared
import proofs.«134519_j9259949490946_2_alg».proof.Proof.Gen.KernelIdeal.Regions
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents around the two launches -/

/-- The first launch's entry contents: the launch memory after the host stretches. -/
abbrev E5 : Entry F := fun c b => V5 m c b
/-- What the first launch leaves in its output array. -/
def o6 (c : Dev nD) : Buf (Elt F) ((c : Thread nD τ).loc main_v14) := (dat0 (E5 m) c).arrAt 2 cfg0.N
/-- The buffers after the first launch: as entered, the output array at `o6`. -/
abbrev X6 (c : Dev nD) : Valuation τ sig (Elt F) := Function.update (V5 m c) main_v14 (o6 m c)
/-- The second launch's entry contents. -/
abbrev E6 : Entry F := fun c b => X6 m c b
/-- What the second launch leaves in its output array. -/
def o7 (c : Dev nD) : Buf (Elt F) ((c : Thread nD τ).loc main_v15) := (dat1 (E6 m) c).arrAt 2 cfg1.N
/-- The buffers after the second launch. -/
abbrev X7 (c : Dev nD) : Valuation τ sig (Elt F) := Function.update (X6 m c) main_v15 (o7 m c)
abbrev E7 : Entry F := fun c b => X7 m c b

/-- What the launches leave, as the family the host side's valuations are written over. -/
def outs : Outs (F := F) := fun J r c =>
  if J = 6 then (if h : r = main_v14 then h ▸ o6 m c else V5 m c r)
  else (if h : r = main_v15 then h ▸ o7 m c else V5 m c r)

theorem outs6 (c : Dev nD) : outs m 6 main_v14 c = o6 m c := by
  unfold outs; rw [if_pos rfl, dif_pos rfl]
theorem outs7 (c : Dev nD) : outs m 7 main_v15 c = o7 m c := by
  unfold outs; rw [if_neg (by decide), dif_pos rfl]
theorem V6_eq (c : Dev nD) : V6 m (outs m) c = X6 m c := by
  show Function.update _ _ _ = _; rw [outs6]
theorem V7_eq (c : Dev nD) : V7 m (outs m) c = X7 m c := by
  show Function.update (V6 m (outs m) c) _ _ = _; rw [outs7, V6_eq]

/-- After the first launch its input arrays are as entered and its output array holds `o6`. -/
theorem exit0_arr (c : Dev nD) : ∀ w : Fin cfg0.W, (dat0 (E5 m) c).arrAt w cfg0.N = E6 m c (Pipeline.arrRef spec0 w)
  | ⟨0, _⟩ => ((dat0 (E5 m) c).arrAt_in 0 rfl _).trans
      ((A_eq0 (E5 m) c 0).trans (Function.update_of_ne (StableHlo.devRef_ne_of_ne (by decide)) _ _).symm)
  | ⟨1, _⟩ => ((dat0 (E5 m) c).arrAt_in 1 rfl _).trans
      ((A_eq0 (E5 m) c 1).trans (Function.update_of_ne (StableHlo.devRef_ne_of_ne (by decide)) _ _).symm)
  | ⟨2, _⟩ => by
      show o6 m c = Function.update (V5 m c) (Proc.devRef .tc main_v14) (o6 m c) (Proc.devRef .tc main_v14)
      rw [Function.update_self]
/-- Off the first launch's arrays nothing changed. -/
theorem exit0_rest (c : Dev nD) : ∀ b, b ∉ Finset.univ.image (Pipeline.arrRef spec0) → E6 m c b = E5 m c b :=
  fun b hb => Function.update_of_ne (StableHlo.devRef_ne_of_ne fun e => hb (Finset.mem_image.mpr ⟨2, Finset.mem_univ _, e.symm⟩)) _ _

/-! ## The proof data family and what rides beside the buffers -/

abbrev pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E6 m) c

abbrev 𝒱₀ : Variants := Variants.none
abbrev Lv : GSem nD τ sig → Finset Unit := fun _ => ∅
abbrev lv : GSem nD τ sig → Unit → ℕ := fun _ _ => 0
/-- Beside the buffers: the core's generator register at some state, and the core owing nothing. -/
abbrev Rest (c : Dev nD) : sProp 𝕄 := iprop((∃ r, prngReg c r) ∗ ∃ W, owes (c : Thread nD τ) (0 : CellTallies nD τ sig Unit) W)

/-! ## The first launch as a segment -/

set_option backward.isDefEq.respectTransparency.types false in
/-- Entered with every unscoped buffer at the host stretches' result, left with the output array updated. -/
def reg0 (hb : ∀ c, BodyObligation (dat0 (F := F) (E5 m) c) (defs₀ (F := F)) Variants.none () Set.univ) :
    RegionSeg (pcfgs (F := F)) adm (pdats m) () defs₀ 𝒱₀ Lv lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ Lv lv 0 fun _ _ => rfl
  pre c := iprop(StableHlo.held (c : Thread nD τ) (Pipeline.ucRefs τ sig) (V5 m c) ∗ Rest c)
  post c := iprop(StableHlo.held (c : Thread nD τ) (Pipeline.ucRefs τ sig) (X6 m c) ∗ Rest c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second launch as a segment -/

/-- Off the second launch's output array nothing changes. -/
theorem exit1_rest (c : Dev nD) :
    (Pipeline.unscopedRest (Ix := Unit) (Name := ℕ) (U := UR sig nD τ) (Lvl := ℕ) spec1 c (fun b => X7 m c b) : sProp 𝕄)
      = Pipeline.unscopedRest spec1 c (fun b => X6 m c b) := by
  unfold Pipeline.unscopedRest
  exact bigSep_congr fun b hb => by
    show ((((c : Thread nD τ).loc b) ↦{fullShare} X7 m c b) : sProp 𝕄) = (((c : Thread nD τ).loc b) ↦{fullShare} X6 m c b)
    rw [show X7 m c b = X6 m c b from Function.update_of_ne (StableHlo.devRef_ne_of_ne fun e =>
      (Finset.mem_sdiff.mp hb).2 (Finset.mem_image.mpr ⟨2, Finset.mem_univ _, e.symm⟩)) _ _]

/-- A core's unscoped buffers at contents `W`: the second launch's two distinct arrays and the rest. -/
theorem held_split1 (c : Dev nD) (W : Valuation τ sig (Elt F)) :
    (StableHlo.held (c : Thread nD τ) (Pipeline.ucRefs τ sig) W : sProp 𝕄)
      = iprop(((((c : Thread nD τ).loc main_v10) ↦{fullShare} W main_v10) ∗ (((c : Thread nD τ).loc main_v15) ↦{fullShare} W main_v15))
          ∗ Pipeline.unscopedRest spec1 c (fun b => W b)) := by
  rw [← Pipeline.unscopedBufs_held c W, Pipeline.unscopedBufs_split₀ (Ix := Unit) (Name := ℕ) (U := UR sig nD τ) (Lvl := ℕ) cfgs 1 winFacts₀1.arr_unscoped c (fun b => W b)]
  show iprop((Pipeline.arrBufs spec1 c (fun b => W b) : sProp 𝕄) ∗ Pipeline.unscopedRest spec1 c (fun b => W b)) = _
  rw [arrBufs1_eq]

set_option backward.isDefEq.respectTransparency.types false in
/-- Entered with every unscoped buffer as the first launch left it, left with its own output array updated. The
    shared input array is split into its two half shares on the way in and joined on the way out. -/
def reg1 (hb : ∀ c, BodyObligation (dat1 (F := F) (E6 m) c) (defs₀ (F := F)) Variants.none () Set.univ) :
    RegionSeg (pcfgs (F := F)) adm (pdats m) () defs₀ 𝒱₀ Lv lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ Lv lv 1 fun _ _ => rfl
  pre c := iprop(StableHlo.held (c : Thread nD τ) (Pipeline.ucRefs τ sig) (X6 m c) ∗ Rest c)
  post c := iprop(StableHlo.held (c : Thread nD τ) (Pipeline.ucRefs τ sig) (X7 m c) ∗ Rest c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hs := held_split1 (F := F) c (X6 m c)
    rw [show (pdats m 1 c).arrays ((pdats m 1 c).arrAt · 0) = _ from arrays1_eq (E6 m) c _]
    iintro ⟨⟨Hub, Hp, HO⟩, -, -⟩
    ihave H := (Entails.of_eq hs) $$ Hub
    icases H with ⟨⟨H10, H15⟩, Hrest⟩
    ihave H10' := (pointsTo_share (PosShare.mem_left_op_right fullShare)).1 $$ H10
    icases H10' with ⟨HL, HR⟩
    imodintro
    isplitl [HL HR H15]
    · isplitl [HL]; · iexact HL
      isplitl [HR]; · iexact HR
      iexact H15
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := held_split1 (F := F) c (X7 m c)
    rw [exit1_rest] at hs
    rw [show (pdats m 1 c).arrays ((pdats m 1 c).arrAt · (Pipeline.pin (pcfgs (F := F)) adm 1).N) = _ from arrays1_eq (E6 m) c _,
      show (pdats m 1 c).arrAt 0 (Pipeline.pin (pcfgs (F := F)) adm 1).N = X7 m c main_v10 from
        ((dat1 (E6 m) c).arrAt_in 0 rfl _).trans ((A_eq1 (E6 m) c 0).trans (Function.update_of_ne (StableHlo.devRef_ne_of_ne (by decide)) _ _).symm),
      show (pdats m 1 c).arrAt 1 (Pipeline.pin (pcfgs (F := F)) adm 1).N = X7 m c main_v10 from
        ((dat1 (E6 m) c).arrAt_in 1 rfl _).trans ((A_eq1 (E6 m) c 1).trans (Function.update_of_ne (StableHlo.devRef_ne_of_ne (by decide)) _ _).symm),
      show (pdats m 1 c).arrAt 2 (Pipeline.pin (pcfgs (F := F)) adm 1).N = X7 m c main_v15 from by
        show o7 m c = Function.update (X6 m c) (Proc.devRef .tc main_v15) (o7 m c) (Proc.devRef .tc main_v15)
        rw [Function.update_self]]
    iintro ⟨⟨HL, HR, H15⟩, HO, HY, Hrest⟩
    ihave H10 := (pointsTo_share (PosShare.mem_left_op_right fullShare)).2 $$ [HL HR]
    · isplitl [HL]; · iexact HL
      iexact HR
    imodintro
    isplitl [H10 H15 Hrest]
    · iapply (Entails.of_eq hs.symm)
      isplitl [H10 H15]
      · isplitl [H10]; · iexact H10
        iexact H15
      iexact Hrest
    isplitl [HY]; · iexact HY
    unfold Pipeline.Dat.owesAt Pipeline.owesWithin
    icases HO with ⟨%W, -, HO⟩; iexists W; iexact HO

/-! ## The run -/

theorem V7_main_v15 (outs : Outs (F := F)) (c : Dev nD) : V7 m outs c main_v15 = outs 7 main_v15 c := by
  show Function.update (V6 m outs c) (Proc.devRef .tc main_v15) _ (Proc.devRef .tc main_v15) = _
  rw [Function.update_self]
theorem V7_main_v14 (outs : Outs (F := F)) (c : Dev nD) : V7 m outs c main_v14 = outs 6 main_v14 c :=
  (V7_of m outs c main_v14 (by decide)).trans (by
    show Function.update (V5 m c) (Proc.devRef .tc main_v14) _ (Proc.devRef .tc main_v14) = _
    rw [Function.update_self])

set_option backward.isDefEq.respectTransparency.types false in
/-- The program's run from one segment record per launch: every weakly fair execution terminates, the two result
    arrays end at what the launches' records leave in them, and every argument ends as launched. The host side is
    the chain of host stretches over the named valuations; at the end every unscoped buffer is read off the last
    valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      r.2.mem ((c.tc : Thread nD τ).loc main_v15) = outs 7 main_v15 c
      ∧ r.2.mem ((c.tc : Thread nD τ).loc main_v14) = outs 6 main_v14 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, .rfl, .rfl, hpre0 c, (hpost0 c).trans (hpre1 c), (hpost1 c).trans (sep_mono .rfl (hE2 c))⟩)
    (hinit := ?_) (QY := fun c s => s.mem ((c.tc : Thread nD τ).loc main_v15) = outs 7 main_v15 c ∧ s.mem ((c.tc : Thread nD τ).loc main_v14) = outs 6 main_v14 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨(h (Proc.devRef .tc main_v15) (Finset.mem_filter.mpr ⟨StableHlo.devRef_mem_tcRefs main_v15, by decide⟩)).trans (V7_main_v15 m outs c),
        (h (Proc.devRef .tc main_v14) (Finset.mem_filter.mpr ⟨StableHlo.devRef_mem_tcRefs main_v14, by decide⟩)).trans (V7_main_v14 m outs c),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c)⟩
    · iexact HSI

set_option backward.isDefEq.respectTransparency.types false in
/-- The run, given the two launches' body obligations: the second result array ends at the first launch's
    write-backs folded over its entry contents, the first result array at the second launch's, the arguments as
    launched. -/
theorem run (ρ : Dev nD → PrngReg)
    (hb0 : ∀ c, BodyObligation (dat0 (F := F) (E5 m) c) (defs₀ (F := F)) Variants.none () Set.univ)
    (hb1 : ∀ c, BodyObligation (dat1 (F := F) (E6 m) c) (defs₀ (F := F)) Variants.none () Set.univ) :
    θ_run defs (onTc (τ := τ) (main (F := F))) ⟨m, fun _ => 0, ρ⟩ (fun r => ∀ c : Dev nD,
      r.2.mem ((c.tc : Thread nD τ).loc main_v15) = o7 m c
      ∧ r.2.mem ((c.tc : Thread nD τ).loc main_v14) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_cond m (Ix := Unit) (U := UR sig nD τ) (Lvl := ℕ) emb₁ () 𝒱₀ Lv lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach Lv lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m hb0) (hpre0 := fun c => .rfl) (hpost0 := fun c => by rw [V6_eq]; exact .rfl)
    (R1 := reg1 m hb1) (hpre1 := fun c => by rw [V6_eq]; exact .rfl) (hpost1 := fun c => by rw [V7_eq]; exact .rfl)
  refine (θ_run defs _ _).mono (fun r hr c => ?_) h
  have := hr c
  rw [outs7, outs6] at this
  exact this

end Cert.KernelIdeal.Hand

end
-- ==== Proof.KI.Region0.lean ====
/-
  The body of launch 0 as a separation-logic triple. The body reads its two operand staging buffers whole,
  reads the output staging buffer whole (the value is never used), and stores the thresholded product of the
  two operand blocks over the whole output buffer. So: if the left buffer holds `x`, the right one `y` and
  the output buffer anything, it ends with the operand buffers unchanged and the output buffer holding
  `out0 x y`. At a grid point the operand buffers hold that point's blocks (whether or not they were
  fetched there: an unfetched operand's block index has not moved), which gives the pipeline's body obligation.
-/
import proofs.«134519_j9259949490946_2_alg».proof.Proof.KI.Data
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The operand windows hold their blocks at every point -/

/-- The left operand's current staging buffer holds its block at every point. It is fetched only when the
    row-block index changes (every fourth point); in between the index has not moved and the body leaves the
    buffer as it found it, so what was fetched earlier is still this point's block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The right operand's current staging buffer holds its block at every point (it is fetched at each). -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The one store covers the output buffer -/

/-- The store's rectangle starts at the origin and has the buffer's extents: every index lies in it. -/
theorem cover0 (p : Vec F S1024x2048 .f32) (y : S1024x2048.Idx) :
    ∃ pc ∈ ([⟨rO, p⟩] : List (View.Piece (Elt F) S1024x2048 .f32)), y ∈ pc.1.set := by
  refine ⟨_, List.mem_singleton_self _, ?_⟩
  have h0 : (![0, 0] : Fin S1024x2048.rank → ℕ) = fun _ => 0 := by
    funext a; fin_cases a <;> rfl
  show y ∈ (Rect.unit (s := S1024x2048) ![0, 0] S1024x2048.size inb_S1024x2048_S1024x2048_0_0).set
  rw [Rect.mem_set_unit]
  intro a
  have ha : (![0, 0] : Fin S1024x2048.rank → ℕ) a = 0 := congrFun h0 a
  rw [ha, Nat.zero_add]
  exact ⟨Nat.zero_le _, (y a).isLt⟩

/-! ## The body's triple -/

set_option maxHeartbeats 1000000 in
/-- The body on whole staging memrefs: the operands' at contents `x`, `y`, the output's at anything. It runs
    to the continuation with the operands' as they were and the output's at `out0 x y`: the load of the
    output buffer reads the unknown contents and discards them; the store then overwrites every element. -/
theorem sound_kernel0 (c : Dev nD) (E : Set ℕ) (i : grid0.Coords)
    (arg2 : Memref sig .tc .vmem S1024x128 .bf16) (harg2 : arg2.IsWhole)
    (arg3 : Memref sig .tc .vmem S2048x128 .bf16) (harg3 : arg3.IsWhole)
    (arg4 : Memref sig .tc .vmem S1024x2048 .f32) (harg4 : arg4.IsWhole)
    (x : Vec F S1024x128 .bf16) (y : Vec F S2048x128 .bf16) (K : PUnit → sProp 𝕄) :
    iprop(owns (c : Thread nD τ) arg2 fullShare x ∗ owns (c : Thread nD τ) arg3 fullShare y
        ∗ (∃ d, owns (c : Thread nD τ) arg4 fullShare d)
        ∗ (iprop(owns (c : Thread nD τ) arg2 fullShare x ∗ owns (c : Thread nD τ) arg3 fullShare y
            ∗ owns (c : Thread nD τ) arg4 fullShare (out0 x y)) -∗ K ⟨⟩))
      ⊢ wp frame (wpE (defs₀ (F := F)) Variants.none c none) E (cc0__cos_threshold_kernel i arg2 harg2 arg3 harg3 arg4 harg4) K := by
  simp only [cc0__cos_threshold_kernel_eq_skeleton]; unfold cc0__cos_threshold_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The body obligation, at a generic point -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operand buffers hold the point's blocks, the output buffer whatever the
    pipeline left there, so the body's triple applies; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (V : Entry F) (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The body of launch 1 as a separation-logic triple. The body reads its two operand staging buffers whole,
  reads the output staging buffer whole (the value is never used), and stores the thresholded product of the
  two operand blocks over the whole output buffer. So: if the left buffer holds `x`, the right one `y` and
  the output buffer anything, it ends with the operand buffers unchanged and the output buffer holding
  `out1 x y`. At a grid point the operand buffers hold that point's blocks (whether or not they were
  fetched there: an unfetched operand's block index has not moved), which gives the pipeline's body obligation.
-/
import proofs.«134519_j9259949490946_2_alg».proof.Proof.KI.Data
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The operand windows hold their blocks at every point -/

/-- The left operand's current staging buffer holds its block at every point. It is fetched only when the
    row-block index changes (every fourth point); in between the index has not moved and the body leaves the
    buffer as it found it, so what was fetched earlier is still this point's block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The right operand's current staging buffer holds its block at every point (it is fetched at each). -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The one store covers the output buffer -/

/-- The store's rectangle starts at the origin and has the buffer's extents: every index lies in it. -/
theorem cover1 (p : Vec F S1024x2048 .f32) (y : S1024x2048.Idx) :
    ∃ pc ∈ ([⟨rO, p⟩] : List (View.Piece (Elt F) S1024x2048 .f32)), y ∈ pc.1.set := by
  refine ⟨_, List.mem_singleton_self _, ?_⟩
  have h0 : (![0, 0] : Fin S1024x2048.rank → ℕ) = fun _ => 0 := by
    funext a; fin_cases a <;> rfl
  show y ∈ (Rect.unit (s := S1024x2048) ![0, 0] S1024x2048.size inb_S1024x2048_S1024x2048_0_0).set
  rw [Rect.mem_set_unit]
  intro a
  have ha : (![0, 0] : Fin S1024x2048.rank → ℕ) a = 0 := congrFun h0 a
  rw [ha, Nat.zero_add]
  exact ⟨Nat.zero_le _, (y a).isLt⟩

/-! ## The body's triple -/

set_option maxHeartbeats 1000000 in
/-- The body on whole staging memrefs: the operands' at contents `x`, `y`, the output's at anything. It runs
    to the continuation with the operands' as they were and the output's at `out1 x y`: the load of the
    output buffer reads the unknown contents and discards them; the store then overwrites every element. -/
theorem sound_kernel1 (c : Dev nD) (E : Set ℕ) (i : grid1.Coords)
    (arg2 : Memref sig .tc .vmem S1024x128 .bf16) (harg2 : arg2.IsWhole)
    (arg3 : Memref sig .tc .vmem S2048x128 .bf16) (harg3 : arg3.IsWhole)
    (arg4 : Memref sig .tc .vmem S1024x2048 .f32) (harg4 : arg4.IsWhole)
    (x : Vec F S1024x128 .bf16) (y : Vec F S2048x128 .bf16) (K : PUnit → sProp 𝕄) :
    iprop(owns (c : Thread nD τ) arg2 fullShare x ∗ owns (c : Thread nD τ) arg3 fullShare y
        ∗ (∃ d, owns (c : Thread nD τ) arg4 fullShare d)
        ∗ (iprop(owns (c : Thread nD τ) arg2 fullShare x ∗ owns (c : Thread nD τ) arg3 fullShare y
            ∗ owns (c : Thread nD τ) arg4 fullShare (out1 x y)) -∗ K ⟨⟩))
      ⊢ wp frame (wpE (defs₀ (F := F)) Variants.none c none) E (cc1__cos_threshold_kernel i arg2 harg2 arg3 harg3 arg4 harg4) K := by
  simp only [cc1__cos_threshold_kernel_eq_skeleton]; unfold cc1__cos_threshold_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The body obligation, at a generic point -/

/-- What the body is called with at point `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same invariant and debt, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operand buffers hold the point's blocks, the output buffer whatever the
    pipeline left there, so the body's triple applies; the invariant and the debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (V : Entry F) (c : Dev nD) : BodyObligation (dat1 (F := F) V c) (defs₀ (F := F)) Variants.none () Set.univ := fun t => by
  rw [bigSep_W1, bigSep_W1]
  exact sound_body1 V c t

end Cert.KernelIdeal.Hand

end
-- ==== Proof.Spec.lean ====
/-
  The thresholded cosine-similarity matrices, over the extended reals.

  From two arrays of 8192 rows of 128 numbers each, one forms a row-normalised array (`nrm`: each row
  divided by the larger of its Euclidean norm and a small constant) and then, for every pair of rows (i, j), the
  inner product of row i of the first array with row j of the second, replaced by zero when it is below a
  threshold (`sim`). A block of the result depends only on the corresponding blocks of rows (`simBlk`).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The shapes, as literals -/

abbrev S_ : Shape := ⟨0, ![]⟩
abbrev S8192 : Shape := ⟨1, ![8192]⟩
abbrev S8192x1 : Shape := ⟨2, ![8192, 1]⟩
abbrev S8192x128 : Shape := ⟨2, ![8192, 128]⟩
abbrev S8192x8192 : Shape := ⟨2, ![8192, 8192]⟩
abbrev S1024x128 : Shape := ⟨2, ![1024, 128]⟩
abbrev S2048x128 : Shape := ⟨2, ![2048, 128]⟩
abbrev S1024x2048 : Shape := ⟨2, ![1024, 2048]⟩

/-! ## The threshold -/

/-- The thresholding of one inner product: zero when it is strictly below the threshold constant, itself otherwise
    (the threshold is the number the word 0x3F666666 denotes, the zero the number the word 0x00000000 denotes). -/
def thr (s : EReal) : EReal :=
  Scalar.select (Ideal.cmp .olt s (Ideal.ofBits .f32 0x3F666666#32)) (Ideal.ofBits .f32 0x00000000#32) s

/-! ## The similarity matrix and one block of it -/

/-- The thresholded inner product of row `p` of `A` with row `q` of `B`, rows of 128 numbers, whatever the
    number of rows. -/
def simAt {m n : Nat} (A : (⟨2, ![m, 128]⟩ : Shape).Idx → EReal) (B : (⟨2, ![n, 128]⟩ : Shape).Idx → EReal)
    (p : Fin m) (q : Fin n) : EReal :=
  thr (∑ k : Fin 128, A (ix2 p k) * B (ix2 q k))

/-- The whole matrix: entry (i, j) is the thresholded inner product of row i of `A` with row j of `B`. -/
def sim (A B : S8192x128.Idx → EReal) : S8192x8192.Idx → EReal :=
  fun i => thr (∑ k : Fin 128, A (ix2 (i 0) k) * B (ix2 (i 1) k))

/-- One block: the same formula for 1024 rows of the first array against 2048 rows of the second. -/
def simBlk (X : S1024x128.Idx → EReal) (Y : S2048x128.Idx → EReal) : S1024x2048.Idx → EReal :=
  fun i => thr (∑ k : Fin 128, X (ix2 (i 0) k) * Y (ix2 (i 1) k))

/-- The matrix at an index given by its coordinates. -/
theorem sim_ix2 (A B : S8192x128.Idx → EReal) (p q : Fin 8192) :
    sim A B (ix2 p q) = thr (∑ k : Fin 128, A (ix2 p k) * B (ix2 q k)) := rfl

/-- A block at an index given by its coordinates. -/
theorem simBlk_ix2 (X : S1024x128.Idx → EReal) (Y : S2048x128.Idx → EReal) (p : Fin 1024) (q : Fin 2048) :
    simBlk X Y (ix2 p q) = thr (∑ k : Fin 128, X (ix2 p k) * Y (ix2 q k)) := rfl

/-! ## The normalised rows -/

/-- The row-normalised product of two arrays: `x * w` with each row divided by the larger of the square root of
    the row's sum of squares and a small constant. The shape relations its operations ask for (the reduced shape, the
    broadcasts of a column and of a constant) are hypotheses of the definition. -/
def nrm (hr : S8192x128.ReducesTo [1] S8192) (h0 : 0 < S_.numel)
    (hb1 : S8192.BroadcastsInDim S8192x1 (![0] : Fin 1 → Fin S8192x1.rank))
    (hb2 : S_.BroadcastsInDim S8192x1 (![] : Fin 0 → Fin S8192x1.rank))
    (hb3 : S8192x1.BroadcastsInDim S8192x128 (![0, 1] : Fin 2 → Fin S8192x128.rank))
    (x w : FVec Ideal S8192x128 .f32) : FVec Ideal S8192x128 .f32 :=
  Host.divf (F := Ideal) (mulf x w)
    (broadcastInDim S8192x128 ![0, 1] hb3
      (maximumf
        (Host.sqrt (F := Ideal)
          (broadcastInDim S8192x1 ![0] hb1
            (Host.reduceAdd (F := Ideal) (mulf (mulf x w) (mulf x w)) (constant (F := Ideal) S_ .f32 0x00000000#32) hr h0)))
        (broadcastInDim S8192x1 ![] hb2 (constant (F := Ideal) S_ .f32 0x322BCC77#32))))

end Cert.Spec

end
-- ==== Proof.Payload.lean ====
/-
  One block of the kernel's result, read at an index: the thresholded inner product of a row of the first block of
  rows with a row of the second.

  The kernel's matrix product contracts the second axis of both operands into a zero accumulator, so its entry
  (p, q) is the sum over k of (first operand at (p, k)) times (second operand at (q, k)); the comparison against the
  threshold and the selection of zero act entry by entry. At the extended reals a change of float format is the
  identity, so the operands' narrower format plays no part.
-/
import proofs.«134519_j9259949490946_2_alg».proof.Proof.Spec
import proofs.«134519_j9259949490946_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Idealize.SL.Sem

/-- The dimension numbers of the block product: the second axis of both operands is contracted. -/
abbrev D : DotDims S1024x128 S2048x128 S1024x2048 := dot_S1024x128_S2048x128_S1024x2048_1_1_0_0_n_n

/-! ## The operand indices of the product at an output index and a contraction index -/

/-- The left operand is read at the output's row … -/
theorem lhs_row (i : S1024x2048.Idx) (c : D.contr.Idx) : (D.lhsIdx i c 0).val = (i 0).val := by
  unfold DotDims.lhsIdx
  rw [dif_neg (show ¬(0 : Fin S1024x128.rank) ∈ D.lhsBatch by decide),
    dif_pos (show (0 : Fin S1024x128.rank) ∈ D.lhsNonContracting by decide)]
  rfl
/-- … and the contraction coordinate; -/
theorem lhs_col (i : S1024x2048.Idx) (c : D.contr.Idx) : (D.lhsIdx i c 1).val = (c ⟨0, by decide⟩).val :=
  D.lhsIdx_val_of_single rfl i c
/-- the right operand at the output's column, as ITS row, … -/
theorem rhs_row (i : S1024x2048.Idx) (c : D.contr.Idx) : (D.rhsIdx i c 0).val = (i 1).val := by
  unfold DotDims.rhsIdx
  rw [dif_neg (show ¬(0 : Fin S2048x128.rank) ∈ D.rhsBatch by decide),
    dif_pos (show (0 : Fin S2048x128.rank) ∈ D.rhsNonContracting by decide)]
  rfl
/-- … and the contraction coordinate. -/
theorem rhs_col (i : S1024x2048.Idx) (c : D.contr.Idx) : (D.rhsIdx i c 1).val = (c ⟨0, by decide⟩).val :=
  D.rhsIdx_val_of_single rfl i c

/-! ## The product at an index -/

/-- The block product into the zero accumulator, at (p, q): the inner product of row p of the first operand with
    row q of the second. -/
theorem mm_apply (X : FVec Ideal S1024x128 .bf16) (Y : FVec Ideal S2048x128 .bf16) (p : Fin 1024) (q : Fin 2048) :
    matmul D none X Y (constant (F := Ideal) S1024x2048 .f32 0x00000000#32) (ix2 p q)
      = ∑ k : Fin 128, X (ix2 p k) * Y (ix2 q k) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (rhs_col _ _).trans hk)
  rw [el, er]

/-! ## The payloads -/

/-- The first launch's stored block is the block of the similarity matrix of its two operand blocks. -/
theorem pay0_eq (x : Vec Ideal S1024x128 .bf16) (y : Vec Ideal S2048x128 .bf16) :
    k0_pay1 (F := Ideal) x y = Cert.Spec.simBlk x y := by
  funext j
  obtain ⟨p, q, rfl⟩ : ∃ (p : Fin 1024) (q : Fin 2048), j = ix2 p q := ⟨j 0, j 1, eq_ix2 j⟩
  rw [Cert.Spec.simBlk_ix2]
  unfold k0_pay1
  simp only [shapeCast_self]
  rw [select_apply, cmpf_apply, broadcast_apply, broadcast_apply]
  rw [show (dot_S1024x128_S2048x128_S1024x2048_1_1_0_0_n_n) = D from rfl, mm_apply]
  rfl

/-- The second launch's likewise. -/
theorem pay1_eq (x : Vec Ideal S1024x128 .bf16) (y : Vec Ideal S2048x128 .bf16) :
    k1_pay1 (F := Ideal) x y = Cert.Spec.simBlk x y := pay0_eq x y

end Cert.KernelIdeal.PayValue

end
-- ==== Proof.KI.Final.lean ====
/-
  From blocks to the arrays. Each launch's output array is cut into 8 x 4 blocks of 1024 rows by 2048 columns;
  the grid point (i, j) writes back block (i, j), and what it writes is the thresholded products of rows
  1024·i … of the left array with rows 2048·j … of the right one — block (i, j) of the similarity matrix. The
  blocks cover the output array, so after the launch the array IS the similarity matrix of the two arrays the
  launch found (in the second launch, of the one array with itself).
-/
import proofs.«134519_j9259949490946_2_alg».proof.Proof.KI.Data
import proofs.«134519_j9259949490946_2_alg».proof.Proof.Spec
import proofs.«134519_j9259949490946_2_alg».proof.Proof.Payload
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : Entry Ideal)

/-- The origin of a rank-2 shape. -/
theorem origin2 : (![0, 0] : Fin 2 → Nat) = fun _ => 0 := funext fun a => by fin_cases a <;> rfl

/-! ## Launch 0 -/

/-- The index maps of launch 0, decided over its 8 x 4 grid: at point (i, j) the left operand's block is block
    row i (its only block column), the right operand's is block row j, and the output's is block (i, j). -/
theorem index_facts0 : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 3 :=
  (by decide +kernel : ∀ t : Fin grid0.N, _)

/-- Every one of the 8 x 4 output blocks is some point's. -/
theorem index_onto0 : ∀ (p : Fin 8) (q : Fin 4), ∃ t : Fin cfg0.N, win0_2.index t = ![p.val, q.val] :=
  (by decide +kernel : ∀ (p : Fin 8) (q : Fin 4), ∃ t : Fin grid0.N, win0_2.index t = ![p.val, q.val])

/-- Row `p` of the left block at point `t` is row `1024·i + p` of the left array, `i` the output's block row. -/
theorem left_block0 (c : Dev nD) (t : Fin cfg0.N) (p : Fin 1024) (k : Fin 128) (r : Fin 8192)
    (hr : r.val = win0_2.index t (0 : Fin 2) * 1024 + p.val) :
    (iblk0 V c 0 t : Vec Ideal S1024x128 .bf16) (ix2 p k) = (V c main_v10 : S8192x128.Idx → Elt Ideal .bf16) (ix2 r k) := by
  obtain ⟨e0, e1, e2, e3, e4, e5⟩ := index_facts0 t
  unfold iblk0
  rw [View.read_apply]
  show V c main_v10 _ = V c main_v10 _
  congr 1
  funext a
  apply Fin.ext
  match a with
  | ⟨0, _⟩ => show win0_0.index t (0 : Fin 2) * 1024 + 1 * p.val = r.val; omega
  | ⟨1, _⟩ => show win0_0.index t (1 : Fin 2) * 128 + 1 * k.val = k.val; omega

/-- Row `q` of the right block at point `t` is row `2048·j + q` of the right array, `j` the output's block column. -/
theorem right_block0 (c : Dev nD) (t : Fin cfg0.N) (q : Fin 2048) (k : Fin 128) (r : Fin 8192)
    (hr : r.val = win0_2.index t (1 : Fin 2) * 2048 + q.val) :
    (iblk0 V c 1 t : Vec Ideal S2048x128 .bf16) (ix2 q k) = (V c main_v13 : S8192x128.Idx → Elt Ideal .bf16) (ix2 r k) := by
  obtain ⟨e0, e1, e2, e3, e4, e5⟩ := index_facts0 t
  unfold iblk0
  rw [View.read_apply]
  show V c main_v13 _ = V c main_v13 _
  congr 1
  funext a
  apply Fin.ext
  match a with
  | ⟨0, _⟩ => show win0_1.index t (0 : Fin 2) * 2048 + 1 * q.val = r.val; omega
  | ⟨1, _⟩ => show win0_1.index t (1 : Fin 2) * 128 + 1 * k.val = k.val; omega

/-- What point `t` writes back is block `t` of the similarity matrix of the two arrays as the launch finds them:
    the body stored the thresholded products of the rows of its two blocks, and those rows are the rows of the
    arrays that the output block's position names. -/
theorem flushed0_eq (c : Dev nD) (t : Fin cfg0.N) :
    (dat0 V c).flushed 2 t
      = ((cfg0.win 2).blk t).view.read (Elt Ideal)
          (Cert.Spec.sim (V c main_v10 : S8192x128.Idx → Elt Ideal .bf16) (V c main_v13 : S8192x128.Idx → Elt Ideal .bf16)) := by
  show (cfg0.win 2).cut (grid0.coords t) ((dat0 V c).after 2 t) = _
  rw [after0_2]
  unfold out0
  rw [View.canon_unit_zero origin2]
  simp only [View.ld_unit_zero (S := S1024x128) origin2, View.ld_unit_zero (S := S2048x128) origin2]
  rw [PayValue.pay0_eq]
  funext y
  have h0 : ((((cfg0.win 2).blk t).view.emb y) 0).val = win0_2.index t (0 : Fin 2) * 1024 + (y 0).val := by
    show win0_2.index t (0 : Fin 2) * 1024 + 1 * (y 0).val = _; omega
  have h1 : ((((cfg0.win 2).blk t).view.emb y) 1).val = win0_2.index t (1 : Fin 2) * 2048 + (y 1).val := by
    show win0_2.index t (1 : Fin 2) * 2048 + 1 * (y 1).val = _; omega
  show Cert.Spec.simBlk (iblk0 V c 0 t) (iblk0 V c 1 t) y = Cert.Spec.sim _ _ (((cfg0.win 2).blk t).view.emb y)
  refine congrArg Cert.Spec.thr (Finset.sum_congr rfl fun k _ => ?_)
  exact congrArg₂ (· * ·) (left_block0 V c t (y 0) k _ h0) (right_block0 V c t (y 1) k _ h1)

/-- An index of the output array lies in point `t`'s block iff each coordinate lies in the block's range. -/
theorem mem_blk0 (t : Fin cfg0.N) (i : S8192x8192.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v14).slice (win0_2.rect t)).set ↔ _
  rw [View.set_slice_whole, Rect.mem_set_unit]
  exact Iff.rfl

/-- Every index of the output array is in some point's block: row `r`, column `s` in that of the point whose output
    block is (r / 1024, s / 2048). -/
theorem covered0 (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto0 ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- After launch 0 its output array is the similarity matrix of the arrays the launch found. -/
theorem final0 (V : Entry Ideal) (c : Dev nD) :
    (dat0 (F := Ideal) V c).arrAt 2 cfg0.N
      = Cert.Spec.sim (V c main_v10 : S8192x128.Idx → Elt Ideal .bf16) (V c main_v13 : S8192x128.Idx → Elt Ideal .bf16) :=
  (dat0 V c).arrAt_eq_of_cover 2 _ (fun t _ => flushed0_eq V c t) covered0

/-! ## Launch 1

Here the left and the right operand are the same array: the matrix is that array's similarity with itself. -/

/-- The index maps of launch 1, decided over its 8 x 4 grid: at point (i, j) the left operand's block is block
    row i (its only block column), the right operand's is block row j, and the output's is block (i, j). -/
theorem index_facts1 : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7
    ∧ win1_2.index t (1 : Fin 2) ≤ 3 :=
  (by decide +kernel : ∀ t : Fin grid1.N, _)

/-- Every one of the 8 x 4 output blocks is some point's. -/
theorem index_onto1 : ∀ (p : Fin 8) (q : Fin 4), ∃ t : Fin cfg1.N, win1_2.index t = ![p.val, q.val] :=
  (by decide +kernel : ∀ (p : Fin 8) (q : Fin 4), ∃ t : Fin grid1.N, win1_2.index t = ![p.val, q.val])

/-- Row `p` of the left block at point `t` is row `1024·i + p` of the left array, `i` the output's block row. -/
theorem left_block1 (c : Dev nD) (t : Fin cfg1.N) (p : Fin 1024) (k : Fin 128) (r : Fin 8192)
    (hr : r.val = win1_2.index t (0 : Fin 2) * 1024 + p.val) :
    (iblk1 V c 0 t : Vec Ideal S1024x128 .bf16) (ix2 p k) = (V c main_v10 : S8192x128.Idx → Elt Ideal .bf16) (ix2 r k) := by
  obtain ⟨e0, e1, e2, e3, e4, e5⟩ := index_facts1 t
  unfold iblk1
  rw [View.read_apply]
  show V c main_v10 _ = V c main_v10 _
  congr 1
  funext a
  apply Fin.ext
  match a with
  | ⟨0, _⟩ => show win1_0.index t (0 : Fin 2) * 1024 + 1 * p.val = r.val; omega
  | ⟨1, _⟩ => show win1_0.index t (1 : Fin 2) * 128 + 1 * k.val = k.val; omega

/-- Row `q` of the right block at point `t` is row `2048·j + q` of the right array, `j` the output's block column. -/
theorem right_block1 (c : Dev nD) (t : Fin cfg1.N) (q : Fin 2048) (k : Fin 128) (r : Fin 8192)
    (hr : r.val = win1_2.index t (1 : Fin 2) * 2048 + q.val) :
    (iblk1 V c 1 t : Vec Ideal S2048x128 .bf16) (ix2 q k) = (V c main_v10 : S8192x128.Idx → Elt Ideal .bf16) (ix2 r k) := by
  obtain ⟨e0, e1, e2, e3, e4, e5⟩ := index_facts1 t
  unfold iblk1
  rw [View.read_apply]
  show V c main_v10 _ = V c main_v10 _
  congr 1
  funext a
  apply Fin.ext
  match a with
  | ⟨0, _⟩ => show win1_1.index t (0 : Fin 2) * 2048 + 1 * q.val = r.val; omega
  | ⟨1, _⟩ => show win1_1.index t (1 : Fin 2) * 128 + 1 * k.val = k.val; omega

/-- What point `t` writes back is block `t` of the similarity matrix of the two arrays as the launch finds them:
    the body stored the thresholded products of the rows of its two blocks, and those rows are the rows of the
    arrays that the output block's position names. -/
theorem flushed1_eq (c : Dev nD) (t : Fin cfg1.N) :
    (dat1 V c).flushed 2 t
      = ((cfg1.win 2).blk t).view.read (Elt Ideal)
          (Cert.Spec.sim (V c main_v10 : S8192x128.Idx → Elt Ideal .bf16) (V c main_v10 : S8192x128.Idx → Elt Ideal .bf16)) := by
  show (cfg1.win 2).cut (grid1.coords t) ((dat1 V c).after 2 t) = _
  rw [after1_2]
  unfold out1
  rw [View.canon_unit_zero origin2]
  simp only [View.ld_unit_zero (S := S1024x128) origin2, View.ld_unit_zero (S := S2048x128) origin2]
  rw [PayValue.pay1_eq]
  funext y
  have h0 : ((((cfg1.win 2).blk t).view.emb y) 0).val = win1_2.index t (0 : Fin 2) * 1024 + (y 0).val := by
    show win1_2.index t (0 : Fin 2) * 1024 + 1 * (y 0).val = _; omega
  have h1 : ((((cfg1.win 2).blk t).view.emb y) 1).val = win1_2.index t (1 : Fin 2) * 2048 + (y 1).val := by
    show win1_2.index t (1 : Fin 2) * 2048 + 1 * (y 1).val = _; omega
  show Cert.Spec.simBlk (iblk1 V c 0 t) (iblk1 V c 1 t) y = Cert.Spec.sim _ _ (((cfg1.win 2).blk t).view.emb y)
  refine congrArg Cert.Spec.thr (Finset.sum_congr rfl fun k _ => ?_)
  exact congrArg₂ (· * ·) (left_block1 V c t (y 0) k _ h0) (right_block1 V c t (y 1) k _ h1)

/-- An index of the output array lies in point `t`'s block iff each coordinate lies in the block's range. -/
theorem mem_blk1 (t : Fin cfg1.N) (i : S8192x8192.Idx) :
    i ∈ ((cfg1.win 2).blk t).view.set ↔ ∀ a : Fin 2, win1_2.index t a * S1024x2048.size a ≤ (i a).val
      ∧ (i a).val < win1_2.index t a * S1024x2048.size a + S1024x2048.size a := by
  show i ∈ ((View.whole main_v15).slice (win1_2.rect t)).set ↔ _
  rw [View.set_slice_whole, Rect.mem_set_unit]
  exact Iff.rfl

/-- Every index of the output array is in some point's block: row `r`, column `s` in that of the point whose output
    block is (r / 1024, s / 2048). -/
theorem covered1 (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := index_onto1 ⟨(i 0).val / 1024, by omega⟩ ⟨(i 1).val / 2048, by omega⟩
  have q0 : win1_2.index t (0 : Fin 2) = (i 0).val / 1024 := congrFun ht 0
  have q1 : win1_2.index t (1 : Fin 2) = (i 1).val / 2048 := congrFun ht 1
  refine ⟨t, flush1_2 t, ?_⟩
  rw [mem_blk1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 2048 ≤ (i 1).val ∧ (i 1).val < win1_2.index t (1 : Fin 2) * 2048 + 2048
    omega

/-- After launch 1 its output array is the similarity matrix of the arrays the launch found. -/
theorem final1 (V : Entry Ideal) (c : Dev nD) :
    (dat1 (F := Ideal) V c).arrAt 2 cfg1.N
      = Cert.Spec.sim (V c main_v10 : S8192x128.Idx → Elt Ideal .bf16) (V c main_v10 : S8192x128.Idx → Elt Ideal .bf16) :=
  (dat1 V c).arrAt_eq_of_cover 2 _ (fun t _ => flushed1_eq V c t) covered1

end Cert.KernelIdeal.Hand

end
-- ==== Proof.KI.HostValue.lean ====
/-
  What the host operations before the first launch leave in the two operand arrays: the normalised rows of the
  products of the arguments.

  The host multiplies the arguments pairwise, takes each row's Euclidean norm, floors it by a small constant,
  broadcasts it along the row, divides, and narrows the float format (the identity on extended reals).
-/
import proofs.«134519_j9259949490946_2_alg».proof.Proof.Gen.KernelIdeal.Regions
import proofs.«134519_j9259949490946_2_alg».proof.Proof.Spec
import Idealize.ShloMosaic.Lib.StableHlo.Run

noncomputable section

namespace Cert.KernelIdeal.Hand

open Cert.KernelIdeal Cert.KernelIdeal.Gen Idealize.ShloMosaic Idealize.ShloMosaic.TcCoe Idealize.SL.Sem
  Idealize.ShloMosaic.StableHlo

/-- The normalised rows of `x * w`, with this program's shape facts. -/
abbrev nrmK (x w : FVec Ideal S8192x128 .f32) : FVec Ideal S8192x128 .f32 :=
  Cert.Spec.nrm reducesTo_S8192x128_S8192_d1 h_S_ bcast_S8192_S8192x1_0 bcast_S_S8192x1 bcast_S8192x1_S8192x128_0_1 x w

variable (m : (ℓ : Loc nD τ sig) → Buf (Elt Ideal) ℓ) (c : Dev nD)

set_option maxRecDepth 8192 in
set_option maxHeartbeats 2000000 in
/-- The first operand array of both launches: the normalised rows of the first and third arguments' product. -/
theorem v10_eq :
    (V5 (F := Ideal) m c main_v10 : S8192x128.Idx → EReal)
      = nrmK (m ((c.tc : Thread nD τ).loc main_arg0)) (m ((c.tc : Thread nD τ).loc main_arg2)) := by
  dsimp only [V5, V4, V3, V2, V1, V0, hostOps0, hostOps0_1, hostOps0_2, hostOps0_3, hostOps0_4]
  after_results_simp
  rfl

set_option maxRecDepth 8192 in
set_option maxHeartbeats 2000000 in
/-- The first launch's second operand array: the normalised rows of the second and fourth arguments' product. -/
theorem v13_eq :
    (V5 (F := Ideal) m c main_v13 : S8192x128.Idx → EReal)
      = nrmK (m ((c.tc : Thread nD τ).loc main_arg1)) (m ((c.tc : Thread nD τ).loc main_arg3)) := by
  dsimp only [V5, V4, V3, V2, V1, V0, hostOps0, hostOps0_1, hostOps0_2, hostOps0_3, hostOps0_4]
  after_results_simp
  rfl

end Cert.KernelIdeal.Hand

end
-- ==== Proof.KI.Value.lean ====
/-
  The two result arrays of the idealized kernel in closed form. The first launch's output is, entry by entry,
  the thresholded inner product of a normalised left row with a normalised right row; the second launch's is
  the same with the left rows on both sides. The normalised rows are what the host stretches leave in the
  launches' input arrays (the second launch finds the first launch's inputs untouched).
-/
import proofs.«134519_j9259949490946_2_alg».proof.Proof.KI.Run
import proofs.«134519_j9259949490946_2_alg».proof.Proof.KI.Final
import proofs.«134519_j9259949490946_2_alg».proof.Proof.KI.HostValue

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The first launch's output: normalised left rows against normalised right rows. -/
theorem o6_eq : o6 (F := Ideal) m c
    = Cert.Spec.sim (nrmK (m ((c.tc : Thread nD τ).loc main_arg0)) (m ((c.tc : Thread nD τ).loc main_arg2)))
        (nrmK (m ((c.tc : Thread nD τ).loc main_arg1)) (m ((c.tc : Thread nD τ).loc main_arg3))) := by
  unfold o6
  rw [final0]
  exact congrArg₂ Cert.Spec.sim (v10_eq m c) (v13_eq m c)

/-- The second launch's output: normalised left rows against themselves. -/
theorem o7_eq : o7 (F := Ideal) m c
    = Cert.Spec.sim (nrmK (m ((c.tc : Thread nD τ).loc main_arg0)) (m ((c.tc : Thread nD τ).loc main_arg2)))
        (nrmK (m ((c.tc : Thread nD τ).loc main_arg0)) (m ((c.tc : Thread nD τ).loc main_arg2))) := by
  have e : (E6 (F := Ideal) m c main_v10 : S8192x128.Idx → EReal)
      = nrmK (m ((c.tc : Thread nD τ).loc main_arg0)) (m ((c.tc : Thread nD τ).loc main_arg2)) :=
    (Function.update_of_ne (StableHlo.devRef_ne_of_ne (by decide)) _ _).trans (v10_eq m c)
  unfold o7
  rw [final1]
  exact congrArg₂ Cert.Spec.sim e e

end Cert.KernelIdeal.Hand

end
-- ==== Proof.RefValue.lean ====
/-
  The reference's two results are the thresholded similarity matrices of the normalised rows.

  The reference transposes the second normalised array and contracts the first array's second axis with the
  transpose's first, so its entry (i, j) is the sum over k of (first array at (i, k)) times (second array at (j, k));
  the comparison with the threshold and the selection of zero act entry by entry.
-/
import proofs.«134519_j9259949490946_2_alg».proof.Proof.Spec
import proofs.«134519_j9259949490946_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.SL.Sem Idealize.ShloMosaic.StableHlo

/-- The normalised rows of `x * w`, with the reference's shape facts. -/
abbrev nrm (x w : FVec Ideal S8192x128 .f32) : FVec Ideal S8192x128 .f32 :=
  Cert.Spec.nrm reducesTo_S8192x128_S8192_d1 h_S_ bcast_S8192_S8192x1_0 bcast_S_S8192x1 bcast_S8192x1_S8192x128_0_1 x w

/-! ## The operands of the two products are the normalised rows -/

theorem v9_eq (x0 x2 : FVec Ideal S8192x128 .f32) : val_main_v9 (F := Ideal) x0 x2 = nrm x0 x2 := rfl
theorem v11_eq (x1 x3 : FVec Ideal S8192x128 .f32) : val_main_v11 (F := Ideal) x1 x3 = nrm x1 x3 := rfl
theorem v24_eq (x0 x2 : FVec Ideal S8192x128 .f32) : val_main_v24 (F := Ideal) x0 x2 = nrm x0 x2 := rfl
theorem v26_eq (x0 x2 : FVec Ideal S8192x128 .f32) : val_main_v26 (F := Ideal) x0 x2 = nrm x0 x2 := rfl

/-! ## The operand indices by coordinates -/

theorem lidx13 (i : S8192x8192.Idx) (k : Fin 128) : lidx_main_v13 i k = ix2 (i 0) k :=
  funext fun a => Fin.ext (by match a with | ⟨0, _⟩ => rfl | ⟨1, _⟩ => rfl)
theorem ridx13 (i : S8192x8192.Idx) (k : Fin 128) : idx_main_v12 (ridx_main_v13 i k) = ix2 (i 1) k :=
  funext fun a => Fin.ext (by match a with | ⟨0, _⟩ => rfl | ⟨1, _⟩ => rfl)
theorem lidx28 (i : S8192x8192.Idx) (k : Fin 128) : lidx_main_v28 i k = ix2 (i 0) k :=
  funext fun a => Fin.ext (by match a with | ⟨0, _⟩ => rfl | ⟨1, _⟩ => rfl)
theorem ridx28 (i : S8192x8192.Idx) (k : Fin 128) : idx_main_v27 (ridx_main_v28 i k) = ix2 (i 1) k :=
  funext fun a => Fin.ext (by match a with | ⟨0, _⟩ => rfl | ⟨1, _⟩ => rfl)

/-! ## The two results -/

/-- The reference's second result: the similarity of the first normalised array's rows with the second's. -/
theorem up_eq (x0 x1 x2 x3 : FVec Ideal S8192x128 .f32) :
    val_main_v16 (F := Ideal) x0 x1 x2 x3 = Cert.Spec.sim (nrm x0 x2) (nrm x1 x3) := by
  funext i
  rw [val_main_v16_apply, val_main_v15_apply, val_main_v14_apply, val_main_cst_1_apply, val_main_call2_v1_apply,
    val_main_call2_v0_apply, val_main_cst_2_apply, val_main_v13_apply]
  simp only [val_main_v12_apply, lidx13, ridx13, v9_eq, v11_eq]
  rfl

/-- The reference's first result: the similarity of the first normalised array's rows with themselves. -/
theorem uu_eq (x0 x2 : FVec Ideal S8192x128 .f32) :
    val_main_v31 (F := Ideal) x0 x2 = Cert.Spec.sim (nrm x0 x2) (nrm x0 x2) := by
  funext i
  rw [val_main_v31_apply, val_main_v30_apply, val_main_v29_apply, val_main_cst_5_apply, val_main_call5_v1_apply,
    val_main_call5_v0_apply, val_main_cst_6_apply, val_main_v28_apply]
  simp only [val_main_v27_apply, lidx28, ridx28, v24_eq, v26_eq]
  rfl

end Cert.ReferenceIdeal.RefValue

end
-- ==== Proof.lean ====
/-
  Thresholded cosine similarities: the kernel against its reference, over the extended reals.

  Both programs scale the two feature tables entrywise (a = attr1·W1, b = attr2·W2), divide every row by its
  Euclidean norm floored at a small constant, and return two 8192 × 8192 matrices: the inner products of the
  normalised rows of a with those of a, and of a with those of b, each entry replaced by 0 where it is below
  the threshold. The host part up to the normalised rows is the same chain of operations in both programs and
  is carried as one function. The kernel then computes each (1024 × 2048) block of a result as one matrix
  product of a block of left rows with a block of right rows into a zero accumulator, followed by the
  comparison and the selection; the reference transposes the right operand and takes one whole contraction.
  Entry by entry both are the thresholded sum over the 128 features of the products of the two rows' entries:
  the blocks tile the result, block (i, j) reads rows 1024·i… of the left and rows 2048·j… of the right operand,
  and a rounding to a narrower float format is the identity on extended reals. No algebraic law beyond
  reading both sides at an index is needed, so the finiteness of the inputs is never used.

  The second launch reads the normalised left rows through both of its operand windows; the run splits that
  array's read share in two for the duration of the launch.
-/
import proofs.«134519_j9259949490946_2_alg».proof.Defs
import proofs.«134519_j9259949490946_2_alg».proof.Proof.Gen.Kernel
import proofs.«134519_j9259949490946_2_alg».proof.Proof.Gen.KernelIdeal
import proofs.«134519_j9259949490946_2_alg».proof.Proof.Gen.ReferenceIdeal
import proofs.«134519_j9259949490946_2_alg».proof.Proof.Gen.ReferenceIdeal.Run
import proofs.«134519_j9259949490946_2_alg».proof.Proof.Gen.ReferenceIdeal.Read
import proofs.«134519_j9259949490946_2_alg».proof.Proof.Gen.Pre_finite_inputs
import proofs.«134519_j9259949490946_2_alg».proof.Proof.K.Run
import proofs.«134519_j9259949490946_2_alg».proof.Proof.K.Region0
import proofs.«134519_j9259949490946_2_alg».proof.Proof.K.Region1
import proofs.«134519_j9259949490946_2_alg».proof.Proof.KI.Run
import proofs.«134519_j9259949490946_2_alg».proof.Proof.KI.Region0
import proofs.«134519_j9259949490946_2_alg».proof.Proof.KI.Region1
import proofs.«134519_j9259949490946_2_alg».proof.Proof.KI.Value
import proofs.«134519_j9259949490946_2_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ =>
  (θ_run (Cert.Kernel.defs (F := Bits)) _ _).mono (fun _ h c => (h c).2.2)
    (Cert.Kernel.Hand.run (F := Bits) m ρ (fun c => Cert.Kernel.Hand.body_obligation0 _ c)
      (fun c => Cert.Kernel.Hand.body_obligation1 _ c))

/-- So does its reading over the extended reals. -/
theorem frame_ki : Cert.frame_KernelIdeal := fun m ρ _ =>
  (θ_run (Cert.KernelIdeal.defs (F := Ideal)) _ _).mono (fun _ h c => (h c).2.2)
    (Cert.KernelIdeal.Hand.run (F := Ideal) m ρ (fun c => Cert.KernelIdeal.Hand.body_obligation0 _ c)
      (fun c => Cert.KernelIdeal.Hand.body_obligation1 _ c))

/-- The reference is host operations only: its run with the results dropped. -/
theorem frame_ri : Cert.frame_ReferenceIdeal := fun m ρ _ =>
  (θ_run (Cert.ReferenceIdeal.defs (F := Ideal)) _ _).mono (fun _ h c => (h c).2.2)
    (Cert.ReferenceIdeal.Value.run (F := Ideal) m ρ)

/-- Nothing was rewritten on the way to the idealized kernel. -/
theorem preserves : Cert.preserves_Kernel_KernelIdeal := trivial

/-- Both programs end with the same two matrices: the thresholded inner products of the normalised rows. -/
theorem algebraic : Cert.algebraic_KernelIdeal_ReferenceIdeal := by
  intro m ρ m' ρ' _ hagree
  refine ⟨fun c => Cert.KernelIdeal.Hand.o7 (F := Ideal) m c, fun c => Cert.KernelIdeal.Hand.o6 (F := Ideal) m c,
    Cert.KernelIdeal.Hand.run (F := Ideal) m ρ (fun c => Cert.KernelIdeal.Hand.body_obligation0 _ c)
      (fun c => Cert.KernelIdeal.Hand.body_obligation1 _ c), ?_⟩
  refine (θ_run (Cert.ReferenceIdeal.defs (F := Ideal)) _ _).mono (fun _ h c => ⟨(h c).1.trans ?_, (h c).2.1.trans ?_, (h c).2.2⟩)
    (Cert.ReferenceIdeal.Value.run (F := Ideal) m' ρ')
  · rw [Cert.ReferenceIdeal.Read.val_main_v31_eq, Cert.ReferenceIdeal.RefValue.uu_eq, (hagree c).1, (hagree c).2.2.1]
    exact (Cert.KernelIdeal.Hand.o7_eq m c).symm
  · rw [Cert.ReferenceIdeal.Read.val_main_v16_eq, Cert.ReferenceIdeal.RefValue.up_eq, (hagree c).1, (hagree c).2.1,
      (hagree c).2.2.1, (hagree c).2.2.2]
    exact (Cert.KernelIdeal.Hand.o6_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
